-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x128x128 : Shape := ⟨4, ![8, 512, 128, 128]⟩
abbrev S8x19x128x128 : Shape := ⟨4, ![8, 19, 128, 128]⟩
abbrev S_ : Shape := ⟨0, ![]⟩

class Facts : Prop where
  bcast_S_S8x512x128x128 : S_.BroadcastsInDim S8x512x128x128 (![] : Fin 0 → Fin S8x512x128x128.rank)
  reducesTo_S8x512x128x128_S_d0_1_2_3 : S8x512x128x128.ReducesTo [0, 1, 2, 3] S_
  h_S_ : 0 < S_.numel
  bcast_S_S8x19x128x128 : S_.BroadcastsInDim S8x19x128x128 (![] : Fin 0 → Fin S8x19x128x128.rank)
  reducesTo_S8x19x128x128_S_d0_1_2_3 : S8x19x128x128.ReducesTo [0, 1, 2, 3] S_

variable [Facts]

def fn {F : FTy → Type} [FloatOps F] (main_arg0 : FVec F S8x512x128x128 .f32) (main_arg1 : FVec F S8x19x128x128 .f32) : IVec S_ 1 :=
  let main_v0 : FVec F S8x512x128x128 .f32 := Host.absf main_arg0
  let main_cst : FVec F S_ .f32 := constant S_ .f32 0x7F800000#32
  let main_v1 : FVec F S8x512x128x128 .f32 := broadcastInDim S8x512x128x128 ![] bcast_S_S8x512x128x128 main_cst
  let main_v2 : IVec S8x512x128x128 1 := cmpf .olt main_v0 main_v1
  let main_c : IVec S_ 1 := constantI S_ 1 1#1
  let main_v3 : IVec S_ 1 := (fun x v => Host.reduce IntOp.andi x v reducesTo_S8x512x128x128_S_d0_1_2_3 h_S_) main_v2 main_c
  let main_v4 : FVec F S8x19x128x128 .f32 := Host.absf main_arg1
  let main_cst_0 : FVec F S_ .f32 := constant S_ .f32 0x7F800000#32
  let main_v5 : FVec F S8x19x128x128 .f32 := broadcastInDim S8x19x128x128 ![] bcast_S_S8x19x128x128 main_cst_0
  let main_v6 : IVec S8x19x128x128 1 := cmpf .olt main_v4 main_v5
  let main_c_1 : IVec S_ 1 := constantI S_ 1 1#1
  let main_v7 : IVec S_ 1 := (fun x v => Host.reduce IntOp.andi x v reducesTo_S8x19x128x128_S_d0_1_2_3 h_S_) main_v6 main_c_1
  let main_v8 : IVec S_ 1 := andi main_v3 main_v7
  main_v8
-- ==== Kernel.lean ====
abbrev S8x512x128x128 : Shape := ⟨4, ![8, 512, 128, 128]⟩
abbrev S8x19x128x128 : Shape := ⟨4, ![8, 19, 128, 128]⟩
abbrev S8x512x16384 : Shape := ⟨3, ![8, 512, 16384]⟩
abbrev S8x19x16384 : Shape := ⟨3, ![8, 19, 16384]⟩
abbrev S8x512x19 : Shape := ⟨3, ![8, 512, 19]⟩
abbrev S1x19x16384 : Shape := ⟨3, ![1, 19, 16384]⟩
abbrev S1x128x16384 : Shape := ⟨3, ![1, 128, 16384]⟩
abbrev S1x128x19 : Shape := ⟨3, ![1, 128, 19]⟩
abbrev S16384x19 : Shape := ⟨2, ![16384, 19]⟩
abbrev S19x16384 : Shape := ⟨2, ![19, 16384]⟩
abbrev S19 : Shape := ⟨1, ![19]⟩
abbrev S19x1 : Shape := ⟨2, ![19, 1]⟩
abbrev S128x16384 : Shape := ⟨2, ![128, 16384]⟩
abbrev S128x19 : Shape := ⟨2, ![128, 19]⟩
abbrev S8x512x19x1 : Shape := ⟨4, ![8, 512, 19, 1]⟩

abbrev nBuf : Space → Nat
  | .hbm => 6
  | .vmem => 7
  | .smem => 0
  | _ => 0

abbrev bufTy : (tb : Table) → Fin (tcTables nBuf tb) → BufTy
  | .hbm, ⟨0, _⟩ => ⟨S8x512x128x128, .f32⟩
  | .hbm, ⟨1, _⟩ => ⟨S8x19x128x128, .f32⟩
  | .hbm, ⟨2, _⟩ => ⟨S8x512x16384, .f32⟩
  | .hbm, ⟨3, _⟩ => ⟨S8x19x16384, .f32⟩
  | .hbm, ⟨4, _⟩ => ⟨S8x512x19, .f32⟩
  | .hbm, ⟨5, _⟩ => ⟨S8x512x19x1, .f32⟩
  | .local _ .vmem, ⟨0, _⟩ => ⟨S1x19x16384, .f32⟩
  | .local _ .vmem, ⟨1, _⟩ => ⟨S1x19x16384, .f32⟩
  | .local _ .vmem, ⟨2, _⟩ => ⟨S1x128x16384, .f32⟩
  | .local _ .vmem, ⟨3, _⟩ => ⟨S1x128x16384, .f32⟩
  | .local _ .vmem, ⟨4, _⟩ => ⟨S1x128x19, .f32⟩
  | .local _ .vmem, ⟨5, _⟩ => ⟨S1x128x19, .f32⟩
  | .local _ .vmem, ⟨6, _⟩ => ⟨S16384x19, .f32⟩
  | _, _ => ⟨S8x512x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x19x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x19 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S8x512x128x128_S8x512x16384 : S8x512x128x128.ShapeCasts S8x512x16384
  shapeCasts_S8x19x128x128_S8x19x16384 : S8x19x128x128.ShapeCasts S8x19x16384
  inb_S1x19x16384_S1x19x16384_0_0_0 : ∀ a, (![0, 0, 0] : Fin 3 → Nat) a + S1x19x16384.size a ≤ S1x19x16384.size a
  h_S1x19x16384 : 0 < S1x19x16384.numel
  shapeCasts_S1x19x16384_S19x16384 : S1x19x16384.ShapeCasts S19x16384
  reduces_S19x16384_S19 : S19x16384.Reduces [1] S19
  shapeCasts_S19_S19x1 : S19.ShapeCasts S19x1
  broadcasts_S19x1_S19x16384 : S19x1.Broadcasts S19x16384
  transposes_S19x16384_p1_0_S16384x19 : S19x16384.Transposes [1, 0] S16384x19
  inb_S16384x19_S16384x19_0_0 : ∀ a, (![0, 0] : Fin 2 → Nat) a + S16384x19.size a ≤ S16384x19.size a
  h_S16384x19 : 0 < S16384x19.numel
  shapeCasts_S16384x19_S16384x19 : S16384x19.ShapeCasts S16384x19
  inb_S1x128x16384_S1x128x16384_0_0_0 : ∀ a, (![0, 0, 0] : Fin 3 → Nat) a + S1x128x16384.size a ≤ S1x128x16384.size a
  h_S1x128x16384 : 0 < S1x128x16384.numel
  shapeCasts_S1x128x16384_S128x16384 : S1x128x16384.ShapeCasts S128x16384
  inb_S1x128x19_S1x128x19_0_0_0 : ∀ a, (![0, 0, 0] : Fin 3 → Nat) a + S1x128x19.size a ≤ S1x128x19.size a
  h_S1x128x19 : 0 < S1x128x19.numel
  shapeCasts_S1x128x19_S128x19 : S1x128x19.ShapeCasts S128x19
  shapeCasts_S128x19_S1x128x19 : S128x19.ShapeCasts S1x128x19
  bcast_S8x512x19_S8x512x19x1_0_1_2 : S8x512x19.BroadcastsInDim S8x512x19x1 (![0, 1, 2] : Fin 3 → Fin S8x512x19x1.rank)
  dot_S128x16384_S16384x19_S128x19_1_0_0_1_n_n_wf : DotDims.WF S128x16384 S16384x19 S128x19 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x16384.size a ≤ S8x19x16384.size a
  hwx0_0 : ∀ i : grid0.Coords, EltTy.bits .f32 = 32 ∨ (Rect.block (s := S8x19x16384) S1x19x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x16384.size a ≤ S8x512x16384.size a
  hwx0_1 : ∀ i : grid0.Coords, EltTy.bits .f32 = 32 ∨ (Rect.block (s := S8x512x16384) S1x128x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x19.size a ≤ S8x512x19.size a
  hwx0_2 : ∀ i : grid0.Coords, EltTy.bits .f32 = 32 ∨ (Rect.block (s := S8x512x19) S1x128x19.size (cc0_transform_2 i) (hinb0_2 i)).WholeWords (EltTy.packing .f32)

variable [Facts₀]

def dot_S128x16384_S16384x19_S128x19_1_0_0_1_n_n : DotDims S128x16384 S16384x19 S128x19 where
  lhsContracting := [1]
  rhsContracting := [0]
  lhsNonContracting := [0]
  rhsNonContracting := [1]
  lhsBatch := []
  rhsBatch := []
  wf := dot_S128x16384_S16384x19_S128x19_1_0_0_1_n_n_wf

abbrev win0_0 : Pipeline.Window sig grid0 :=
  Pipeline.Window.ofSpec (Memref.whole main_v1) S1x19x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128x19.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x512x128x128 : Shape := ⟨4, ![8, 512, 128, 128]⟩
abbrev S8x19x128x128 : Shape := ⟨4, ![8, 19, 128, 128]⟩
abbrev S8x19x16384 : Shape := ⟨3, ![8, 19, 16384]⟩
abbrev S8x512x16384 : Shape := ⟨3, ![8, 512, 16384]⟩
abbrev S_ : Shape := ⟨0, ![]⟩
abbrev S8x19 : Shape := ⟨2, ![8, 19]⟩
abbrev S8x19x1 : Shape := ⟨3, ![8, 19, 1]⟩
abbrev S8x19x512 : Shape := ⟨3, ![8, 19, 512]⟩
abbrev S8x512x19 : Shape := ⟨3, ![8, 512, 19]⟩
abbrev S8x512x19x1 : Shape := ⟨4, ![8, 512, 19, 1]⟩

abbrev nBuf : Space → Nat
  | .hbm => 24
  | .vmem => 0
  | .smem => 0
  | _ => 0

abbrev bufTy : (tb : Table) → Fin (tcTables nBuf tb) → BufTy
  | .hbm, ⟨0, _⟩ => ⟨S8x512x128x128, .f32⟩
  | .hbm, ⟨1, _⟩ => ⟨S8x19x128x128, .f32⟩
  | .hbm, ⟨2, _⟩ => ⟨S8x19x16384, .f32⟩
  | .hbm, ⟨3, _⟩ => ⟨S8x512x16384, .f32⟩
  | .hbm, ⟨4, _⟩ => ⟨S_, .f32⟩
  | .hbm, ⟨5, _⟩ => ⟨S8x19x16384, .f32⟩
  | .hbm, ⟨6, _⟩ => ⟨S8x19x16384, .f32⟩
  | .hbm, ⟨7, _⟩ => ⟨S_, .f32⟩
  | .hbm, ⟨8, _⟩ => ⟨S8x19, .f32⟩
  | .hbm, ⟨9, _⟩ => ⟨S_, .f32⟩
  | .hbm, ⟨10, _⟩ => ⟨S8x19, .f32⟩
  | .hbm, ⟨11, _⟩ => ⟨S8x19, .f32⟩
  | .hbm, ⟨12, _⟩ => ⟨S8x19x1, .f32⟩
  | .hbm, ⟨13, _⟩ => ⟨S8x19x16384, .f32⟩
  | .hbm, ⟨14, _⟩ => ⟨S8x19x16384, .f32⟩
  | .hbm, ⟨15, _⟩ => ⟨S8x19x16384, .f32⟩
  | .hbm, ⟨16, _⟩ => ⟨S_, .f32⟩
  | .hbm, ⟨17, _⟩ => ⟨S8x19, .f32⟩
  | .hbm, ⟨18, _⟩ => ⟨S8x19x1, .f32⟩
  | .hbm, ⟨19, _⟩ => ⟨S8x19x16384, .f32⟩
  | .hbm, ⟨20, _⟩ => ⟨S8x19x16384, .f32⟩
  | .hbm, ⟨21, _⟩ => ⟨S8x19x512, .f32⟩
  | .hbm, ⟨22, _⟩ => ⟨S8x512x19, .f32⟩
  | .hbm, ⟨23, _⟩ => ⟨S8x512x19x1, .f32⟩
  | _, _ => ⟨S8x512x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  shapeCasts_S8x19x128x128_S8x19x16384 : S8x19x128x128.ShapeCasts S8x19x16384
  shapeCasts_S8x512x128x128_S8x512x16384 : S8x512x128x128.ShapeCasts S8x512x16384
  bcast_S_S8x19x16384 : S_.BroadcastsInDim S8x19x16384 (![] : Fin 0 → Fin S8x19x16384.rank)
  reducesTo_S8x19x16384_S8x19_d2 : S8x19x16384.ReducesTo [2] S8x19
  h_S_ : 0 < S_.numel
  bcast_S_S8x19 : S_.BroadcastsInDim S8x19 (![] : Fin 0 → Fin S8x19.rank)
  bcast_S8x19_S8x19x1_0_1 : S8x19.BroadcastsInDim S8x19x1 (![0, 1] : Fin 2 → Fin S8x19x1.rank)
  bcast_S8x19x1_S8x19x16384_0_1_2 : S8x19x1.BroadcastsInDim S8x19x16384 (![0, 1, 2] : Fin 3 → Fin S8x19x16384.rank)
  transposes_S8x19x512_S8x512x19_0_2_1 : S8x19x512.Transposes [0, 2, 1] S8x512x19
  bcast_S8x512x19_S8x512x19x1_0_1_2 : S8x512x19.BroadcastsInDim S8x512x19x1 (![0, 1, 2] : Fin 3 → Fin S8x512x19x1.rank)
  dot_S8x19x16384_S8x512x16384_S8x19x512_2_2_1_1_0_0_wf : DotDims.WF S8x19x16384 S8x512x16384 S8x19x512 [2] [2] [1] [1] [0] [0]

variable [Facts₀]

def dot_S8x19x16384_S8x512x16384_S8x19x512_2_2_1_1_0_0 : DotDims S8x19x16384 S8x512x16384 S8x19x512 where
  lhsContracting := [2]
  rhsContracting := [2]
  lhsNonContracting := [1]
  rhsNonContracting := [1]
  lhsBatch := [0]
  rhsBatch := [0]
  wf := dot_S8x19x16384_S8x512x16384_S8x19x512_2_2_1_1_0_0_wf

class Facts : Prop extends Facts₀ where

variable [Facts]
-- ==== Proof.Spec.lean ====
/- The pooled context as a function of one row of scores and one row of features, on the extended reals:
   the scores' softmax weights (taken from the row's maximum, as both programs take them) against the features,
   summed over the positions. Also the one law that joins the two programs: a weight formed as
   e * (1 / z) is the quotient e / z as soon as z is not zero, and z is not zero for a row of real scores. -/
import Idealize.ShloMosaic.PureOps.Ideal
import Idealize.ShloMosaic.PureOps.Ideal.Laws
import Idealize.ShloMosaic.Lib.ValueIdx

noncomputable section

namespace Cert.PoolSpec

open Idealize.ShloMosaic

/-- The f32 words the two programs use, as extended reals: −∞, 1 and 0. -/
theorem negInf_eq : Ideal.ofBits .f32 0xFF800000#32 = ⊥ := by simp [Ideal.ofBits, Ideal.ieee]
theorem one_eq : Ideal.ofBits .f32 0x3F800000#32 = 1 := by simp [Ideal.ofBits, Ideal.ieee, -EReal.coe_mul]; norm_num
theorem zero_eq : Ideal.ofBits .f32 0x00000000#32 = 0 := Ideal.ofBits_zero_f32

variable {N : ℕ}

/-- A row's largest entry, the maximum taken from −∞. -/
def rowMax (x : Fin N → EReal) : EReal := (Finset.univ : Finset (Fin N)).fold max (Ideal.ofBits .f32 0xFF800000#32) x

/-- The unnormalized weight of position `n`: exp (xₙ − max x). -/
def rowExp (x : Fin N → EReal) (n : Fin N) : EReal := Ideal.exp (x n - rowMax x)

/-- Their sum over the row. -/
def rowSum (x : Fin N → EReal) : EReal := ∑ n, rowExp x n

/-- The normalized weight, the unnormalized one times the reciprocal of the sum. -/
def weight (x : Fin N → EReal) (n : Fin N) : EReal :=
  rowExp x n * Ideal.div (Ideal.ofBits .f32 0x3F800000#32) (rowSum x)

/-- The pooled value of a row of features `f` under the scores `x`: Σₙ fₙ · weightₙ. -/
def pooled (f x : Fin N → EReal) : EReal := ∑ n, f n * weight x n

/-- The exponential is nowhere negative, -/
theorem exp_nonneg (x : EReal) : 0 ≤ Ideal.exp x := by
  induction x using EReal.rec with
  | bot => exact le_refl _
  | coe r => exact EReal.coe_nonneg.mpr (Real.exp_pos r).le
  | top => exact le_top

/-- and vanishes at −∞ only. -/
theorem exp_ne_zero {x : EReal} (h : x ≠ ⊥) : Ideal.exp x ≠ 0 := by
  induction x using EReal.rec with
  | bot => exact absurd rfl h
  | coe r => exact fun e => (Real.exp_pos r).ne' (EReal.coe_eq_zero.mp e)
  | top => exact EReal.top_ne_zero

/-- The maximum of a row with no +∞ in it is below +∞. -/
theorem rowMax_ne_top (x : Fin N → EReal) (hx : ∀ n, x n ≠ ⊤) : rowMax x ≠ ⊤ := by
  refine ne_of_lt ?_
  unfold rowMax
  rw [Finset.fold_max_lt, negInf_eq]
  exact ⟨bot_lt_top, fun n _ => lt_top_iff_ne_top.mpr (hx n)⟩

/-- So the sum of the unnormalized weights of a row of reals is not zero: none of its terms is negative, and
    a term at a real score is not zero. -/
theorem rowSum_ne_zero (x : Fin N → EReal) (hx : ∀ n, ∃ r : ℝ, x n = (r : EReal)) (n0 : Fin N) : rowSum x ≠ 0 := by
  intro hz
  unfold rowSum at hz
  have h0 := (Finset.sum_eq_zero_iff_of_nonneg (fun n _ => exp_nonneg _)).mp hz n0 (Finset.mem_univ _)
  refine exp_ne_zero ?_ h0
  obtain ⟨r, hr⟩ := hx n0
  have hm : rowMax x ≠ ⊤ := rowMax_ne_top x fun n => by obtain ⟨s, hs⟩ := hx n; rw [hs]; exact EReal.coe_ne_top s
  rw [hr, sub_eq_add_neg]
  intro hb
  rcases EReal.add_eq_bot_iff.mp hb with h | h
  · exact EReal.coe_ne_bot r h
  · exact hm (EReal.neg_eq_bot_iff.mp h)

/-- Off a zero sum the weight is the quotient: e · (1 / z) = e / z. -/
theorem weight_eq_div (x : Fin N → EReal) (hz : rowSum x ≠ 0) (n : Fin N) :
    weight x n = Ideal.div (rowExp x n) (rowSum x) := by
  unfold weight Ideal.div
  rw [if_neg hz, if_neg hz, one_eq, one_mul]

/-! ## The whole result, over the two arrays with their spatial axes flattened -/

open Idealize.ShloMosaic.ValueIdx in
/-- The pooled context of batch `b`, channel `ch`, class `k`: the channel's features over the 16384 positions pooled
    under the softmax of the class's scores. -/
def poolAt (Fm : (⟨3, ![8, 512, 16384]⟩ : Shape).Idx → EReal) (Pm : (⟨3, ![8, 19, 16384]⟩ : Shape).Idx → EReal)
    (b : Fin 8) (ch : Fin 512) (k : Fin 19) : EReal :=
  pooled (fun n : Fin 16384 => Fm (ix3 b ch n)) (fun n : Fin 16384 => Pm (ix3 b k n))

/-- The same as an array of shape [8, 512, 19]. -/
def poolArr (Fm : (⟨3, ![8, 512, 16384]⟩ : Shape).Idx → EReal) (Pm : (⟨3, ![8, 19, 16384]⟩ : Shape).Idx → EReal) :
    (⟨3, ![8, 512, 19]⟩ : Shape).Idx → EReal :=
  fun j => poolAt Fm Pm ⟨(j 0).val, (j 0).isLt⟩ ⟨(j 1).val, (j 1).isLt⟩ ⟨(j 2).val, (j 2).isLt⟩

open Idealize.ShloMosaic.ValueIdx in
theorem poolArr_apply (Fm : (⟨3, ![8, 512, 16384]⟩ : Shape).Idx → EReal) (Pm : (⟨3, ![8, 19, 16384]⟩ : Shape).Idx → EReal)
    (b : Fin 8) (ch : Fin 512) (k : Fin 19) : poolArr Fm Pm (ix3 b ch k) = poolAt Fm Pm b ch k := rfl

open Idealize.ShloMosaic.ValueIdx in
/-- The softmax weights of batch `b` as a matrix, positions by classes. -/
def weightsOf (Pm : (⟨3, ![8, 19, 16384]⟩ : Shape).Idx → EReal) (b : Fin 8) : (⟨2, ![16384, 19]⟩ : Shape).Idx → EReal :=
  fun j => weight (fun n : Fin 16384 => Pm (ix3 b ⟨(j 1).val, (j 1).isLt⟩ n)) ⟨(j 0).val, (j 0).isLt⟩

open Idealize.ShloMosaic.ValueIdx in
theorem weightsOf_apply (Pm : (⟨3, ![8, 19, 16384]⟩ : Shape).Idx → EReal) (b : Fin 8) (n : Fin 16384) (k : Fin 19) :
    weightsOf Pm b (ix2 n k) = weight (fun n' : Fin 16384 => Pm (ix3 b k n')) n := rfl

end Cert.PoolSpec

end
-- ==== Proof.Pieces.lean ====
/- What one call of the kernel body leaves behind, at any float instance, in terms of the body's two computed values:
   W(p) — the transposed normalized weights of a block p of scores — and M(f, w) — the block f of features times
   a weight matrix w.
   * At the first channel block of a batch the body stores W(p) into the scratch and then M(f, W(p)) into the output
     block: the product reads the scratch it has just written.
   * At every other channel block the scratch is left as found, w, and the output block is M(f, w). -/
import proofs.«101488_g94489280978_feedfinal_143_11_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The whole-buffer rectangles start at zero, in rank 2 and in rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-- First channel block: the scratch ends at the weights W(p) of the scores block. -/
theorem scratch_first (c : Dev nD) (i : grid0.Coords) (arg2 : Memref sig .tc .vmem S1x19x16384 .f32) (harg2 : arg2.IsWhole) (arg3 : Memref sig .tc .vmem S1x128x16384 .f32) (harg3 : arg3.IsWhole) (arg4 : Memref sig .tc .vmem S1x128x19 .f32) (harg4 : arg4.IsWhole) (arg5 : Memref sig .tc .vmem S16384x19 .f32) (harg5 : arg5.IsWhole) (hc0 : cond0_0 i)
    (x0 : Vec F S1x19x16384 .f32) (x1 : Vec F S1x128x16384 .f32) :
    sout0_A_0 c i arg2 harg2 arg3 harg3 arg4 harg4 arg5 harg5 hc0 x0 x1 = k0_pay1 x0 := by
  unfold sout0_A_0
  rw [View.read_writes_eq_canon _ _ _ (scover0_A_0 c i arg2 harg2 arg3 harg3 arg4 harg4 arg5 harg5 hc0 x0 x1)]
  unfold kernelRun0_A
  dsimp only
  sl_unfold_words
  rw [View.canon_unit_zero hz2]
  simp only [View.readAt_eq_ld, harg2.read_unread, View.ld_unit_zero (S := S1x19x16384) hz3]

/-- First channel block: the output block ends at M(f, W(p)), the product read from the scratch just written. -/
theorem out_first (c : Dev nD) (i : grid0.Coords) (arg2 : Memref sig .tc .vmem S1x19x16384 .f32) (harg2 : arg2.IsWhole) (arg3 : Memref sig .tc .vmem S1x128x16384 .f32) (harg3 : arg3.IsWhole) (arg4 : Memref sig .tc .vmem S1x128x19 .f32) (harg4 : arg4.IsWhole) (arg5 : Memref sig .tc .vmem S16384x19 .f32) (harg5 : arg5.IsWhole) (hc0 : cond0_0 i)
    (x0 : Vec F S1x19x16384 .f32) (x1 : Vec F S1x128x16384 .f32) :
    out0_A_2 c i arg2 harg2 arg3 harg3 arg4 harg4 arg5 harg5 hc0 x0 x1 = k0_pay2 x1 (k0_pay1 x0) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_unit_zero hz3, View.readCov_unit_zero (S := S16384x19) _ hz2]
  simp only [View.readAt_eq_ld, harg2.read_unread, harg3.read_unread, View.ld_unit_zero (S := S1x19x16384) hz3,
    View.ld_unit_zero (S := S1x128x16384) hz3]

/-- Any other channel block: the output block ends at M(f, w) of the scratch's contents w as found. -/
theorem out_later (c : Dev nD) (i : grid0.Coords) (arg2 : Memref sig .tc .vmem S1x19x16384 .f32) (harg2 : arg2.IsWhole) (arg3 : Memref sig .tc .vmem S1x128x16384 .f32) (harg3 : arg3.IsWhole) (arg4 : Memref sig .tc .vmem S1x128x19 .f32) (harg4 : arg4.IsWhole) (arg5 : Memref sig .tc .vmem S16384x19 .f32) (harg5 : arg5.IsWhole) (hc0 : ¬cond0_0 i)
    (x0 : Vec F S1x19x16384 .f32) (x1 : Vec F S1x128x16384 .f32) (xs0 : Vec F S16384x19 .f32) :
    out0_B_2 c i arg2 harg2 arg3 harg3 arg4 harg4 arg5 harg5 hc0 x0 x1 xs0 = k0_pay2 x1 xs0 := by
  unfold out0_B_2
  rw [View.read_writes_eq_canon _ _ _ (cover0_B_2 c i arg2 harg2 arg3 harg3 arg4 harg4 arg5 harg5 hc0 x0 x1 xs0)]
  unfold kernelRun0_B
  dsimp only
  rw [View.canon_unit_zero hz3]
  simp only [View.readAt_eq_ld, harg3.read_unread, harg5.read_unread, View.ld_unit_zero (S := S1x128x16384) hz3,
    View.ld_unit_zero (S := S16384x19) hz2]

end Cert.KernelIdeal.Pieces

end
-- ==== Proof.Payload.lean ====
/- The body's two computed values read at an index, on the extended reals.
   W(p), the weights of a scores block p (one batch: 19 classes by 16384 positions), at (position n, class k), is the
   softmax weight of position n in class k's row of scores: exp (p[k,n] − max p[k,·]) · (1 / Σ exp (p[k,·] − max p[k,·])).
   M(f, w), a features block f (128 channels by 16384 positions) times a matrix w (positions by classes), at
   (channel r, class k), is Σₙ f[r,n] · w[n,k]. -/
import proofs.«101488_g94489280978_feedfinal_143_11_alg».proof.Proof.Gen.KernelIdeal.Skeleton
import proofs.«101488_g94489280978_feedfinal_143_11_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Payload

open Cert.KernelIdeal Cert.KernelIdeal.Gen Cert.PoolSpec

/-! ## The layout steps of the weights, at an index -/

/-- A vector of 19 entries cast to a column reads its entry. -/
theorem col_cast_apply {α : Type} (v : S19.Idx → α) (k : Fin 19) (u : Fin 1) :
    shapeCast S19x1 v shapeCasts_S19_S19x1 (ix2 k u) = v (ix1 k) :=
  shapeCast_apply v shapeCasts_S19_S19x1 _ _ (by
    have hu : u.val = 0 := by omega
    rw [Shape.rowMajor_val_two, Shape.rowMajor_val_one]
    show k.val = k.val * 1 + u.val
    omega)

/-- A column broadcast along the positions reads the column's entry of the row. -/
theorem col_bcast_apply {α : Type} (v : S19x1.Idx → α) (k : Fin 19) (n : Fin 16384) :
    broadcastTo S19x16384 v broadcasts_S19x1_S19x16384 (ix2 k n) = v (ix2 k (0 : Fin 1)) := by
  refine broadcastTo_apply v broadcasts_S19x1_S19x16384 (ix2 k n) (ix2 k (0 : Fin 1)) fun ax => ?_
  match ax with
  | ⟨0, _⟩ => show k.val = if (19 : ℕ) = 1 then 0 else k.val; rw [if_neg (by decide)]
  | ⟨1, _⟩ => show (0 : ℕ) = if (1 : ℕ) = 1 then 0 else n.val; rw [if_pos rfl]

/-- The index a reduction over the positions reads: class k's row at position n. -/
theorem lift_eq (k : Fin 19) (n : Fin 16384) : reduces_S19x16384_S19.lift (ix1 k) n = ix2 k n :=
  funext fun a => Fin.ext (by match a with | ⟨0, _⟩ => rfl | ⟨1, _⟩ => rfl)

/-- A row's maximum over the positions, from −∞. -/
theorem rowmax_apply (v : FVec Ideal S19x16384 .f32) (k : Fin 19) :
    multiReduction .maximumf [1] S19 v 0xFF800000#32 reduces_S19x16384_S19 (.inl rfl) rfl (ix1 k)
      = rowMax (fun n : Fin 16384 => v (ix2 k n)) := by
  refine (Ideal.multiReduction_maximumf_single v _ reduces_S19x16384_S19 (.inl rfl) rfl (ix1 k)).trans ?_
  have e : (v ∘ reduces_S19x16384_S19.lift (ix1 k)) = fun n : Fin 16384 => v (ix2 k n) :=
    funext fun n => congrArg v (lift_eq k n)
  unfold rowMax
  exact congrArg (fun g => (Finset.univ : Finset (Fin 16384)).fold max (Ideal.ofBits .f32 0xFF800000#32) g) e

/-- A row's sum over the positions. -/
theorem rowsum_apply (v : FVec Ideal S19x16384 .f32) (k : Fin 19) :
    multiReduction .add [1] S19 v 0x00000000#32 reduces_S19x16384_S19 (.inl rfl) rfl (ix1 k)
      = ∑ n : Fin 16384, v (ix2 k n) :=
  (Ideal.multiReduction_add_single v _ reduces_S19x16384_S19 (.inl rfl) rfl (ix1 k)).trans
    (Finset.sum_congr rfl fun n _ => congrArg v (lift_eq k n))

theorem exp_apply {s : Shape} (v : FVec Ideal s .f32) (i : s.Idx) : exp v i = Ideal.exp (v i) := rfl

/-! ## The weights -/

/-- The rows' unnormalized weights: exp of each entry less its row's maximum. -/
def expRows (v : FVec Ideal S19x16384 .f32) : FVec Ideal S19x16384 .f32 :=
  exp (subf v (broadcastTo S19x16384 (shapeCast S19x1
    (multiReduction .maximumf [1] S19 v 0xFF800000#32 reduces_S19x16384_S19 (.inl rfl) rfl) shapeCasts_S19_S19x1)
    broadcasts_S19x1_S19x16384))

/-- The rows scaled by the reciprocals of their sums. -/
def normRows (e : FVec Ideal S19x16384 .f32) : FVec Ideal S19x16384 .f32 :=
  mulf e (broadcastTo S19x16384 (divf (broadcast S19x1 (Scalar.ofBits .f32 0x3F800000#32)) (shapeCast S19x1
    (multiReduction .add [1] S19 e 0x00000000#32 reduces_S19x16384_S19 (.inl rfl) rfl) shapeCasts_S19_S19x1))
    broadcasts_S19x1_S19x16384)

/-- The body's weights are these two steps on the scores block, transposed. -/
theorem weights_eq (x0 : Vec Ideal S1x19x16384 .f32) :
    k0_pay1 (F := Ideal) x0 = shapeCast S16384x19 (transpose S16384x19 [1, 0]
      (normRows (expRows (shapeCast S19x16384 x0 shapeCasts_S1x19x16384_S19x16384)))
      transposes_S19x16384_p1_0_S16384x19) shapeCasts_S16384x19_S16384x19 := rfl

theorem expRows_apply (v : FVec Ideal S19x16384 .f32) (k : Fin 19) (n : Fin 16384) :
    expRows v (ix2 k n) = rowExp (fun n' : Fin 16384 => v (ix2 k n')) n := by
  show Ideal.exp (v (ix2 k n) - broadcastTo S19x16384 (shapeCast S19x1
    (multiReduction .maximumf [1] S19 v 0xFF800000#32 reduces_S19x16384_S19 (.inl rfl) rfl) shapeCasts_S19_S19x1)
    broadcasts_S19x1_S19x16384 (ix2 k n)) = _
  rw [col_bcast_apply, col_cast_apply, rowmax_apply]
  rfl

theorem normRows_apply (e : FVec Ideal S19x16384 .f32) (k : Fin 19) (n : Fin 16384) :
    normRows e (ix2 k n) = e (ix2 k n) * Ideal.div (Ideal.ofBits .f32 0x3F800000#32) (∑ n' : Fin 16384, e (ix2 k n')) := by
  unfold normRows
  rw [mulf_apply, col_bcast_apply, divf_apply, broadcast_apply, col_cast_apply, rowsum_apply, Ideal.ofBits_def]

/-- W(p) at (n, k): the softmax weight of position n in class k's row of the scores block. -/
theorem weights_apply (x0 : Vec Ideal S1x19x16384 .f32) (n : Fin 16384) (k : Fin 19) :
    k0_pay1 (F := Ideal) x0 (ix2 n k) = weight (fun n' : Fin 16384 => x0 (ix3 (0 : Fin 1) k n')) n := by
  have hrow : (fun n' : Fin 16384 => shapeCast S19x16384 x0 shapeCasts_S1x19x16384_S19x16384 (ix2 k n'))
      = fun n' => x0 (ix3 (0 : Fin 1) k n') :=
    funext fun n' => shapeCast_1ab_ab_apply x0 shapeCasts_S1x19x16384_S19x16384 k n'
  have hsum : (∑ n' : Fin 16384, expRows (shapeCast S19x16384 x0 shapeCasts_S1x19x16384_S19x16384) (ix2 k n'))
      = rowSum (fun n' : Fin 16384 => x0 (ix3 (0 : Fin 1) k n')) := by
    unfold rowSum
    exact Finset.sum_congr rfl fun n' _ => by rw [expRows_apply, hrow]
  rw [weights_eq, shapeCast_self, transpose_ix2_apply, normRows_apply, expRows_apply, hrow, hsum]
  rfl

/-! ## The product -/

theorem lhs_0 (j : S128x19.Idx) (q : dot_S128x16384_S16384x19_S128x19_1_0_0_1_n_n.contr.Idx) : (dot_S128x16384_S16384x19_S128x19_1_0_0_1_n_n.lhsIdx j q 0).val = (j 0).val := by
  unfold DotDims.lhsIdx
  rw [dif_neg (show ¬(0 : Fin S128x16384.rank) ∈ dot_S128x16384_S16384x19_S128x19_1_0_0_1_n_n.lhsBatch by decide),
    dif_pos (show (0 : Fin S128x16384.rank) ∈ dot_S128x16384_S16384x19_S128x19_1_0_0_1_n_n.lhsNonContracting by decide)]
  rfl
theorem lhs_1 (j : S128x19.Idx) (q : dot_S128x16384_S16384x19_S128x19_1_0_0_1_n_n.contr.Idx) : (dot_S128x16384_S16384x19_S128x19_1_0_0_1_n_n.lhsIdx j q 1).val = (q ⟨0, by decide⟩).val :=
  dot_S128x16384_S16384x19_S128x19_1_0_0_1_n_n.lhsIdx_val_of_single rfl j q
theorem rhs_0 (j : S128x19.Idx) (q : dot_S128x16384_S16384x19_S128x19_1_0_0_1_n_n.contr.Idx) : (dot_S128x16384_S16384x19_S128x19_1_0_0_1_n_n.rhsIdx j q 0).val = (q ⟨0, by decide⟩).val :=
  dot_S128x16384_S16384x19_S128x19_1_0_0_1_n_n.rhsIdx_val_of_single rfl j q
theorem rhs_1 (j : S128x19.Idx) (q : dot_S128x16384_S16384x19_S128x19_1_0_0_1_n_n.contr.Idx) : (dot_S128x16384_S16384x19_S128x19_1_0_0_1_n_n.rhsIdx j q 1).val = (j 1).val := by
  unfold DotDims.rhsIdx
  rw [dif_neg (show ¬(1 : Fin S16384x19.rank) ∈ dot_S128x16384_S16384x19_S128x19_1_0_0_1_n_n.rhsBatch by decide),
    dif_pos (show (1 : Fin S16384x19.rank) ∈ dot_S128x16384_S16384x19_S128x19_1_0_0_1_n_n.rhsNonContracting by decide)]
  rfl

/-- The matrix product into a zero accumulator at (r, k): the sum over the positions. -/
theorem matmul_at (a : FVec Ideal S128x16384 .f32) (w : FVec Ideal S16384x19 .f32) (r : Fin 128) (k : Fin 19) :
    matmul dot_S128x16384_S16384x19_S128x19_1_0_0_1_n_n none a w (constant S128x19 .f32 0x00000000#32) (ix2 r k)
      = ∑ n : Fin 16384, a (ix2 r n) * w (ix2 n k) := by
  refine (Ideal.matmul_constant_zero_apply dot_S128x16384_S16384x19_S128x19_1_0_0_1_n_n none a w (ix2 r k)).trans ?_
  rw [← Equiv.sum_comp (contrEquiv1 dot_S128x16384_S16384x19_S128x19_1_0_0_1_n_n 16384 rfl rfl).symm]
  refine Finset.sum_congr rfl fun n _ => ?_
  have hn := contrEquiv1_symm_val dot_S128x16384_S16384x19_S128x19_1_0_0_1_n_n 16384 rfl rfl n
  have el : dot_S128x16384_S16384x19_S128x19_1_0_0_1_n_n.lhsIdx (ix2 r k) ((contrEquiv1 dot_S128x16384_S16384x19_S128x19_1_0_0_1_n_n 16384 rfl rfl).symm n) = ix2 r n :=
    funext fun ax => Fin.ext (by
      match ax with
      | ⟨0, _⟩ => exact lhs_0 _ _
      | ⟨1, _⟩ => exact (lhs_1 _ _).trans hn)
  have er : dot_S128x16384_S16384x19_S128x19_1_0_0_1_n_n.rhsIdx (ix2 r k) ((contrEquiv1 dot_S128x16384_S16384x19_S128x19_1_0_0_1_n_n 16384 rfl rfl).symm n) = ix2 n k :=
    funext fun ax => Fin.ext (by
      match ax with
      | ⟨0, _⟩ => exact (rhs_0 _ _).trans hn
      | ⟨1, _⟩ => exact rhs_1 _ _)
  rw [el, er]

/-- M(f, w) at (r, k): Σₙ f[r,n] · w[n,k]. -/
theorem product_apply (x1 : Vec Ideal S1x128x16384 .f32) (w : Vec Ideal S16384x19 .f32) (r : Fin 128) (k : Fin 19) :
    k0_pay2 (F := Ideal) x1 w (ix3 (0 : Fin 1) r k) = ∑ n : Fin 16384, x1 (ix3 (0 : Fin 1) r n) * w (ix2 n k) := by
  unfold k0_pay2
  simp only [shapeCast_ab_1ab_apply, matmul_at, shapeCast_1ab_ab_apply]

end Cert.KernelIdeal.Payload

end
-- ==== Proof.Blocks.lean ====
/- Where the kernel's blocks sit in their arrays, and what the arrays are.
   The grid is 8 batches by 4 channel blocks; point t is batch t / 4, channel block t % 4. At point t
   * the scores window holds batch t / 4 whole: its entry (0, k, n) is the scores array at (t / 4, k, n);
   * the features window holds 128 channels: its entry (0, r, n) is the features array at (t / 4, 128 · (t % 4) + r, n);
   * the output window is the same rows of the output array.
   The two arrays the region reads are the arguments with their last two axes flattened (the host reshapes). -/
import proofs.«101488_g94489280978_feedfinal_143_11_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The three index maps over the grid: batch t / 4 on the first axis, channel block t % 4 on the second (the scores
    window: 0), 0 on the last. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = t.val % 4 ∧ win0_2.index t (2 : Fin 3) = 0 :=
  (by decide +kernel : ∀ t : Fin grid0.N, _)

/-- The scores block of point t at (0, k, n) is the scores array at (batch, k, n). -/
theorem scores_block (c : Dev nD) (t : Fin cfg0.N) (b : Fin 8) (hb : b.val = t.val / 4) (k : Fin 19) (n : Fin 16384) :
    (iblk m c 0 t : Vec F S1x19x16384 .f32) (ix3 (0 : Fin 1) k n) = V m c main_v1 (ix3 b k n) := by
  obtain ⟨e0, e1, e2, -⟩ := idx_facts t
  unfold iblk
  rw [View.read_apply]
  show V m c main_v1 (((cfg0.win 0).blk t).view.emb (ix3 (0 : Fin 1) k n)) = V m c main_v1 (ix3 b k n)
  refine congrArg (V m c main_v1) (funext fun a => Fin.ext ?_)
  match a with
  | ⟨0, _⟩ => show win0_0.index t (0 : Fin 3) * 1 + 1 * 0 = b.val; omega
  | ⟨1, _⟩ => show win0_0.index t (1 : Fin 3) * 19 + 1 * k.val = k.val; omega
  | ⟨2, _⟩ => show win0_0.index t (2 : Fin 3) * 16384 + 1 * n.val = n.val; omega

/-- The features block of point t at (0, r, n) is the features array at (batch, 128 · block + r, n). -/
theorem feats_block (c : Dev nD) (t : Fin cfg0.N) (b : Fin 8) (hb : b.val = t.val / 4) (ch : Fin 512) (r : Fin 128)
    (hch : ch.val = t.val % 4 * 128 + r.val) (n : Fin 16384) :
    (iblk m c 1 t : Vec F S1x128x16384 .f32) (ix3 (0 : Fin 1) r n) = V m c main_v0 (ix3 b ch n) := by
  obtain ⟨-, -, -, e0, e1, e2, -⟩ := idx_facts t
  unfold iblk
  rw [View.read_apply]
  show V m c main_v0 (((cfg0.win 1).blk t).view.emb (ix3 (0 : Fin 1) r n)) = V m c main_v0 (ix3 b ch n)
  refine congrArg (V m c main_v0) (funext fun a => Fin.ext ?_)
  match a with
  | ⟨0, _⟩ => show win0_1.index t (0 : Fin 3) * 1 + 1 * 0 = b.val; omega
  | ⟨1, _⟩ => show win0_1.index t (1 : Fin 3) * 128 + 1 * r.val = ch.val; omega
  | ⟨2, _⟩ => show win0_1.index t (2 : Fin 3) * 16384 + 1 * n.val = n.val; omega

/-- The scores array the region reads: the second argument with its two spatial axes flattened. -/
theorem V_scores (c : Dev nD) : (V m c main_v1 : Buf (Elt F) ((c : Thread nD τ).loc main_v1))
    = shapeCast S8x19x16384 (m ((c : Thread nD τ).loc main_arg1)) shapeCasts_S8x19x128x128_S8x19x16384 := by
  show StableHlo.after hostOps0 (fun b => m (c, b)) (Proc.devRef .tc main_v1) = _
  after_results
  rfl

/-- The features array the region reads: the first argument with its two spatial axes flattened. -/
theorem V_feats (c : Dev nD) : (V m c main_v0 : Buf (Elt F) ((c : Thread nD τ).loc main_v0))
    = shapeCast S8x512x16384 (m ((c : Thread nD τ).loc main_arg0)) shapeCasts_S8x512x128x128_S8x512x16384 := by
  show StableHlo.after hostOps0 (fun b => m (c, b)) (Proc.devRef .tc main_v0) = _
  after_results
  rfl

end Cert.KernelIdeal.Blocks

end
-- ==== Proof.Carried.lean ====
/- What the scratch and the output block hold after each grid point, on the extended reals.
   The scratch is written at the first channel block of a batch and only read at the other three, so after point t it
   holds the softmax weights of batch t / 4 — by induction on the point. The output block of point t is therefore the
   product of the point's 128 channels of features with those weights: entry (0, r, k) is the pooled context of batch
   t / 4, channel 128 · (t % 4) + r, class k. -/
import proofs.«101488_g94489280978_feedfinal_143_11_alg».proof.Proof.Pieces
import proofs.«101488_g94489280978_feedfinal_143_11_alg».proof.Proof.Payload
import proofs.«101488_g94489280978_feedfinal_143_11_alg».proof.Proof.Blocks

noncomputable section

open Idealize.ShloMosaic Idealize.ShloMosaic.TcCoe Idealize.SL.Sem Idealize.ShloMosaic.ValueIdx

namespace Cert.KernelIdeal.Carried

open Cert.KernelIdeal Cert.KernelIdeal.Gen Cert.PoolSpec

variable (m : (ℓ : Loc nD τ sig) → Buf (Elt Ideal) ℓ)

/-- The weights computed from the scores block of point t are the softmax weights of batch t / 4. -/
theorem weights_of_block (c : Dev nD) (t : Fin cfg0.N) (b : Fin 8) (hb : b.val = t.val / 4) :
    k0_pay1 (F := Ideal) (iblk m c 0 t) = weightsOf (V m c main_v1) b := by
  funext j
  obtain ⟨n, k, rfl⟩ : ∃ (n : Fin 16384) (k : Fin 19), j = ix2 n k := ⟨j 0, j 1, eq_ix2 j⟩
  refine (Payload.weights_apply (iblk m c 0 t) n k).trans ?_
  exact congrArg (fun g => weight g n) (funext fun n' => Blocks.scores_block m c t b hb k n')

/-- At a first channel block the scratch ends at the batch's weights. -/
theorem scratch_at_first (c : Dev nD) (t : Fin cfg0.N) (h0 : t.val % 4 = 0) (b : Fin 8) (hb : b.val = t.val / 4) :
    (outsAt0 m c t.val t.isLt).2 = weightsOf (V m c main_v1) b := by
  have e1 := Pieces.scratch_first (F := Ideal) c (grid0.coords t) (ms0_0 t) (hs0_0 t) (ms0_1 t) (hs0_1 t) (ms0_2 t) (hs0_2 t) scM0_0 (Memref.isWhole_whole _) ((hcond0_0 t).mpr h0) (iblk m c 0 t) (iblk m c 1 t)
  have e2 := weights_of_block m c t b hb
  rw [outsAt0_A m c t h0]
  dsimp only
  exact e1.trans e2

/-- After every point the scratch holds the weights of the point's batch: written at the batch's first channel
    block, carried unchanged through the other three. -/
theorem scratch_after (c : Dev nD) : ∀ (n : ℕ) (h : n < cfg0.N) (b : Fin 8), b.val = n / 4 →
    (outsAt0 m c n h).2 = weightsOf (V m c main_v1) b
  | 0, h, b, hb => scratch_at_first m c ⟨0, h⟩ (Nat.zero_mod 4) b hb
  | n + 1, h, b, hb => by
    by_cases h0 : (n + 1) % 4 = 0
    · exact scratch_at_first m c ⟨n + 1, h⟩ h0 b hb
    · rw [outsAt0_B m c ⟨n + 1, h⟩ h0]
      exact scratch_after c n (Nat.lt_of_succ_lt h) b (by omega)

/-- The output block of point t is the product of the point's features block with the batch's weights. -/
theorem out_at (c : Dev nD) (t : Fin cfg0.N) (b : Fin 8) (hb : b.val = t.val / 4) :
    (outsAt0 m c t.val t.isLt).1 = k0_pay2 (F := Ideal) (iblk m c 1 t) (weightsOf (V m c main_v1) b) := by
  by_cases h0 : t.val % 4 = 0
  · rw [outsAt0_A m c t h0]
    refine (Pieces.out_first (F := Ideal) c (grid0.coords t) (ms0_0 t) (hs0_0 t) (ms0_1 t) (hs0_1 t) (ms0_2 t) (hs0_2 t) scM0_0 (Memref.isWhole_whole _) ((hcond0_0 t).mpr h0) (iblk m c 0 t) (iblk m c 1 t)).trans ?_
    exact congrArg (k0_pay2 (F := Ideal) (iblk m c 1 t)) (weights_of_block m c t b hb)
  · have hN : t.val < 32 := lt_of_lt_of_eq t.isLt (show cfg0.N = 32 from N_0)
    rw [outsAt0_B m c t h0]
    refine (Pieces.out_later (F := Ideal) c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t)
      (outsAt0 m c (t.val - 1) (Nat.lt_of_le_of_lt (Nat.sub_le _ _) t.isLt)).2).trans ?_
    exact congrArg (k0_pay2 (F := Ideal) (iblk m c 1 t))
      (scratch_after m c (t.val - 1) (Nat.lt_of_le_of_lt (Nat.sub_le _ _) t.isLt) b (by omega))

/-- Entry (0, r, k) of the output block of point t: the pooled context of batch t / 4, channel 128 · (t % 4) + r, class k,
    of the two arrays the region reads. -/
theorem out_apply (c : Dev nD) (t : Fin cfg0.N) (b : Fin 8) (hb : b.val = t.val / 4) (ch : Fin 512) (r : Fin 128)
    (hch : ch.val = t.val % 4 * 128 + r.val) (k : Fin 19) :
    (outsAt0 m c t.val t.isLt).1 (ix3 (0 : Fin 1) r k) = poolAt (V m c main_v0) (V m c main_v1) b ch k := by
  rw [out_at m c t b hb]
  refine (Payload.product_apply (iblk m c 1 t) (weightsOf (V m c main_v1) b) r k).trans ?_
  unfold poolAt pooled
  exact Finset.sum_congr rfl fun n _ => by rw [Blocks.feats_block m c t b hb ch r hch n]; rfl

end Cert.KernelIdeal.Carried

end
-- ==== Proof.Final.lean ====
/- From the blocks to the result. Point t writes back rows 128 · (t % 4) … of batch t / 4 of the output array, and
   those blocks tile it (row (b, ch) lies in the block of point 4 b + ch / 128), so the output array ends as the
   pooled array of the two arrays the region reads; the host line after the region only adds a trailing unit axis. -/
import proofs.«101488_g94489280978_feedfinal_143_11_alg».proof.Proof.Carried
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.PoolSpec

variable (m : (ℓ : Loc nD τ sig) → Buf (Elt Ideal) ℓ) (ρ : Dev nD → PrngReg)

/-- The pooled array of the two arrays the region reads. -/
abbrev pooledOf (c : Dev nD) : Buf (Elt Ideal) ((c : Thread nD τ).loc main_v2) := poolArr (V m c main_v0) (V m c main_v1)

set_option maxRecDepth 65536 in
/-- What point t writes back is its block of the pooled array. -/
theorem flushed_eq (c : Dev nD) (t : Fin cfg0.N) :
    (dats m 0 c).flushed 2 t = ((cfg0.win 2).blk t).view.read (Elt Ideal) (pooledOf m c) := by
  have hN : t.val < 32 := lt_of_lt_of_eq t.isLt (show cfg0.N = 32 from N_0)
  show (cfg0.win 2).cut (grid0.coords t) ((dats m 0 c).after 2 t) = _
  rw [after0_2]
  funext y
  rw [View.read_apply]
  generalize hX : (outsAt0 m c t.val t.isLt).1 = X
  show X ((cfg0.win 2).xinj (grid0.coords t) y) = _
  obtain ⟨u, r, k, hy⟩ : ∃ (u : Fin 1) (r : Fin 128) (k : Fin 19), (cfg0.win 2).xinj (grid0.coords t) y = ix3 u r k :=
    ⟨_, _, _, eq_ix3 _⟩
  have hu : u.val = 0 := by omega
  have y0 : (y 0).val = u.val := congrArg (fun j : S1x128x19.Idx => (j 0).val) hy
  have y1 : (y 1).val = r.val := congrArg (fun j : S1x128x19.Idx => (j 1).val) hy
  have y2 : (y 2).val = k.val := congrArg (fun j : S1x128x19.Idx => (j 2).val) hy
  obtain rfl : u = 0 := Fin.ext hu
  obtain ⟨b, hb⟩ : ∃ b : Fin 8, b.val = t.val / 4 := ⟨⟨t.val / 4, by omega⟩, rfl⟩
  obtain ⟨ch, hch⟩ : ∃ ch : Fin 512, ch.val = t.val % 4 * 128 + r.val := ⟨⟨t.val % 4 * 128 + r.val, by have := r.isLt; omega⟩, rfl⟩
  have hemb : ((cfg0.win 2).blk t).view.emb y = ix3 b ch k := by
    obtain ⟨-, -, -, -, -, -, e0, e1, e2⟩ := Blocks.idx_facts t
    funext a; apply Fin.ext
    match a with
    | ⟨0, _⟩ => show win0_2.index t (0 : Fin 3) * 1 + 1 * (y 0).val = b.val; omega
    | ⟨1, _⟩ => show win0_2.index t (1 : Fin 3) * 128 + 1 * (y 1).val = ch.val; omega
    | ⟨2, _⟩ => show win0_2.index t (2 : Fin 3) * 19 + 1 * (y 2).val = k.val; omega
  rw [hy, ← hX, hemb, Carried.out_apply m c t b hb ch r hch k]
  exact (poolArr_apply (V m c main_v0) (V m c main_v1) b ch k).symm

/-- An index of the output array is in point t's block iff each coordinate is in the block's range on its axis. -/
theorem mem_blk (t : Fin cfg0.N) (i : S8x512x19.Idx) :
    i ∈ ((cfg0.win 2).blk t).view.set ↔ ∀ a : Fin 3, win0_2.index t a * S1x128x19.size a ≤ (i a).val
      ∧ (i a).val < win0_2.index t a * S1x128x19.size a + S1x128x19.size a := by
  show i ∈ ((View.whole main_v2).slice (win0_2.rect t)).set ↔ _
  rw [View.set_slice_whole, Rect.mem_set_unit]
  exact Iff.rfl

/-- Every index of the output array is in some point's block: row (b, ch) in that of point 4 b + ch / 128. -/
theorem cover (i : S8x512x19.Idx) :
    ∃ t : Fin cfg0.N, (cfg0.win 2).flush t = true ∧ i ∈ ((cfg0.win 2).blk t).view.set := by
  have h0 : (i 0).val < 8 := (i 0).isLt
  have h1 : (i 1).val < 512 := (i 1).isLt
  have h2 : (i 2).val < 19 := (i 2).isLt
  have hN : cfg0.N = 32 := N_0
  obtain ⟨t, ht⟩ : ∃ t : Fin cfg0.N, t.val = (i 0).val * 4 + (i 1).val / 128 := ⟨⟨(i 0).val * 4 + (i 1).val / 128, by omega⟩, rfl⟩
  refine ⟨t, flush0_2 t, ?_⟩
  rw [mem_blk]
  obtain ⟨-, -, -, -, -, -, e0, e1, e2⟩ := Blocks.idx_facts t
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 19 ≤ (i 2).val ∧ (i 2).val < win0_2.index t (2 : Fin 3) * 19 + 19; omega

/-- So the output array ends as the pooled array. -/
theorem final (c : Dev nD) : (dats m 0 c).arrAt 2 cfg0.N = pooledOf m c :=
  (dats m 0 c).arrAt_eq_of_cover 2 (pooledOf m c) (fun t _ => flushed_eq m c t) cover

/-- The result after the host line that follows the region: the pooled array with a trailing unit axis. -/
theorem tail_eq (c : Dev nD) : Pipeline.afterTail₀ cfgs (dats m) 0 (V0 m) [hostOps1] c main_v3
    = broadcastInDim S8x512x19x1 ![0, 1, 2] bcast_S8x512x19_S8x512x19x1_0_1_2 (pooledOf m c) := by
  unfold Pipeline.afterTail₀
  show StableHlo.after hostOps1 _ (Proc.devRef .tc main_v3) = _
  after_results
  refine congrArg (broadcastInDim (s := S8x512x19) S8x512x19x1 ![0, 1, 2] bcast_S8x512x19_S8x512x19x1_0_1_2) ?_
  exact (Pipeline.withArrays_arr spec0 launch0.win.arr_inj c _ _ 2).trans (final m c)

/-- The kernel's run with its result named: it ends at the pooled array of the flattened arguments with a trailing
    unit axis, the arguments unchanged. -/
theorem run : θ_run defs (onTc (τ := τ) (main (F := Ideal))) ⟨m, fun _ => 0, ρ⟩ fun r => ∀ c : Dev nD,
      r.2.mem ((c.tc : Thread nD τ).loc main_v3)
        = broadcastInDim S8x512x19x1 ![0, 1, 2] bcast_S8x512x19_S8x512x19x1_0_1_2
            (poolArr (shapeCast S8x512x16384 (m ((c.tc : Thread nD τ).loc main_arg0)) shapeCasts_S8x512x128x128_S8x512x16384)
              (shapeCast S8x19x16384 (m ((c.tc : Thread nD τ).loc main_arg1)) shapeCasts_S8x19x128x128_S8x19x16384))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans
        ((tail_eq m c).trans (by unfold pooledOf; rw [Blocks.V_feats m c, Blocks.V_scores m c])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Final

end
-- ==== Proof.RefPool.lean ====
/- The reference read as the pooled array. Its softmax is taken along the positions of the flattened scores P:
   the scores scaled by 1, their row maximum from −∞ (and once more against −∞), exp of the difference, the row sum
   from 0, the quotient; then one batched contraction with the flattened features F over the positions and a transpose.
   At (batch b, channel ch, class k) this is Σₙ (e[b,k,n] / z[b,k]) · F[b,ch,n], and for real scores, where z is not
   zero, each quotient is the weight e · (1 / z): the pooled context of the specification. -/
import proofs.«101488_g94489280978_feedfinal_143_11_alg».proof.Proof.Gen.ReferenceIdeal.Read
import proofs.«101488_g94489280978_feedfinal_143_11_alg».proof.Proof.Spec

noncomputable section

open Idealize.ShloMosaic Idealize.ShloMosaic.ValueIdx

namespace Cert.ReferenceIdeal.RefPool

open Cert.ReferenceIdeal Cert.ReferenceIdeal.Gen Cert.ReferenceIdeal.Read Cert.PoolSpec

variable (x0 : (⟨S8x512x128x128, .f32⟩ : BufTy).Contents (Elt Ideal)) (x1 : (⟨S8x19x128x128, .f32⟩ : BufTy).Contents (Elt Ideal))

/-- The reduction over the positions, as the single-axis reading asks for it. -/
theorem red_d2 : S8x19x16384.Reduces [2] S8x19 := by decide

/-- The index it reads: row (b, k) at position n. -/
theorem lift_d2 (b : Fin 8) (k : Fin 19) (n : Fin 16384) : red_d2.lift (ix2 b k) n = ix3 b k n :=
  funext fun a => Fin.ext (by match a with | ⟨0, _⟩ => rfl | ⟨1, _⟩ => rfl | ⟨2, _⟩ => rfl)

/-- Scaling by 1 changes nothing. -/
theorem scaled_apply (b : Fin 8) (k : Fin 19) (n : Fin 16384) :
    val_main_v3 (F := Ideal) x1 (ix3 b k n) = val_main_v0 (F := Ideal) x1 (ix3 b k n) := by
  rw [val_main_v3_apply, val_main_v2_apply, val_main_cst_apply, Ideal.mulf_def, Ideal.ofBits_def, one_eq, one_mul]

/-- The row maximum the host's reduce takes from −∞. -/
theorem rowmax_reduce (b : Fin 8) (k : Fin 19) :
    val_main_v4 (F := Ideal) x1 (ix2 b k) = rowMax (fun n : Fin 16384 => val_main_v0 (F := Ideal) x1 (ix3 b k n)) := by
  unfold val_main_v4
  rw [Host.reduce_eq_fold_single FloatOps.maximumf _ _ reducesTo_S8x19x16384_S8x19_d2 red_d2 h_S_]
  have e : (val_main_v3 (F := Ideal) x1 ∘ red_d2.lift (ix2 b k))
      = fun n : Fin 16384 => val_main_v0 (F := Ideal) x1 (ix3 b k n) :=
    funext fun (n : Fin 16384) => by
      show val_main_v3 (F := Ideal) x1 (red_d2.lift (ix2 b k) n) = _
      rw [lift_d2 b k n, scaled_apply]
  rw [e]
  rfl

/-- Taking the maximum against −∞ once more changes nothing. -/
theorem rowmax_apply (b : Fin 8) (k : Fin 19) :
    val_main_v6 (F := Ideal) x1 (ix2 b k) = rowMax (fun n : Fin 16384 => val_main_v0 (F := Ideal) x1 (ix3 b k n)) := by
  rw [val_main_v6_apply, val_main_v5_apply, val_main_cst_1_apply, rowmax_reduce, Ideal.maximumf_def, Ideal.ofBits_def,
    negInf_eq]
  exact max_eq_right bot_le

/-- The unnormalized weights. -/
theorem rowexp_apply (b : Fin 8) (k : Fin 19) (n : Fin 16384) :
    val_main_v10 (F := Ideal) x1 (ix3 b k n) = rowExp (fun n' : Fin 16384 => val_main_v0 (F := Ideal) x1 (ix3 b k n')) n := by
  have e : idx_main_v7 (idx_main_v8 (ix3 b k n)) = ix2 b k :=
    funext fun a => Fin.ext (by match a with | ⟨0, _⟩ => rfl | ⟨1, _⟩ => rfl)
  rw [val_main_v10_apply, val_main_v9_apply, val_main_v8_apply, val_main_v7_apply, scaled_apply, e, rowmax_apply,
    Ideal.hostUnary_exp_def, Ideal.subf_def]
  rfl

/-- Their row sum from 0. -/
theorem rowsum_apply (b : Fin 8) (k : Fin 19) :
    val_main_v11 (F := Ideal) x1 (ix2 b k) = rowSum (fun n' : Fin 16384 => val_main_v0 (F := Ideal) x1 (ix3 b k n')) := by
  rw [val_main_v11_apply, val_main_cst_2_apply, Ideal.ofBits_def, zero_eq, zero_add]
  unfold rowSum
  refine Finset.sum_congr rfl fun n _ => ?_
  have e : idx_main_v11 (ix2 b k) n = ix3 b k n :=
    funext fun a => Fin.ext (by match a with | ⟨0, _⟩ => rfl | ⟨1, _⟩ => rfl | ⟨2, _⟩ => rfl)
  rw [e, rowexp_apply]

/-- The softmax entry as the reference forms it: the quotient e / z. -/
theorem quotient_apply (b : Fin 8) (k : Fin 19) (n : Fin 16384) :
    val_main_v14 (F := Ideal) x1 (ix3 b k n)
      = Ideal.div (rowExp (fun n' : Fin 16384 => val_main_v0 (F := Ideal) x1 (ix3 b k n')) n)
          (rowSum (fun n' : Fin 16384 => val_main_v0 (F := Ideal) x1 (ix3 b k n'))) := by
  have e : idx_main_v12 (idx_main_v13 (ix3 b k n)) = ix2 b k :=
    funext fun a => Fin.ext (by match a with | ⟨0, _⟩ => rfl | ⟨1, _⟩ => rfl)
  rw [val_main_v14_apply, val_main_v13_apply, val_main_v12_apply, e, rowexp_apply, rowsum_apply, Ideal.hostDivf_def]

/-- For real scores the contraction, transposed, is the pooled array of the flattened arguments. -/
theorem ref_is_pool (hx1 : ∀ i, ∃ r : ℝ, x1 i = (r : EReal)) :
    val_main_v16 (F := Ideal) x0 x1 = poolArr (val_main_v1 (F := Ideal) x0) (val_main_v0 (F := Ideal) x1) := by
  funext j
  obtain ⟨b, ch, k, rfl⟩ : ∃ (b : Fin 8) (ch : Fin 512) (k : Fin 19), j = ix3 b ch k := ⟨j 0, j 1, j 2, eq_ix3 j⟩
  have hz : rowSum (fun n : Fin 16384 => val_main_v0 (F := Ideal) x1 (ix3 b k n)) ≠ 0 :=
    rowSum_ne_zero _ (fun n => by rw [val_main_v0_apply]; exact hx1 _) ⟨0, by decide⟩
  rw [val_main_v16_apply, val_main_v15_apply, poolArr_apply]
  unfold poolAt pooled
  refine Finset.sum_congr rfl fun n _ => ?_
  have el : lidx_main_v15 (idx_main_v16 (ix3 b ch k)) n = ix3 b k n :=
    funext fun a => Fin.ext (by match a with | ⟨0, _⟩ => rfl | ⟨1, _⟩ => rfl | ⟨2, _⟩ => rfl)
  have er : ridx_main_v15 (idx_main_v16 (ix3 b ch k)) n = ix3 b ch n :=
    funext fun a => Fin.ext (by match a with | ⟨0, _⟩ => rfl | ⟨1, _⟩ => rfl | ⟨2, _⟩ => rfl)
  rw [el, er, quotient_apply, weight_eq_div _ hz, mul_comm]

end Cert.ReferenceIdeal.RefPool

end
-- ==== Proof.Finite.lean ====
/- The precondition read at an entry: jnp.all (|x| < +∞) over the scores says every score is a real number
   (on the extended reals |x| = max x (−x) is below +∞ exactly when x is neither infinity). -/
import proofs.«101488_g94489280978_feedfinal_143_11_alg».proof.Pre_finite_inputs
import proofs.«101488_g94489280978_feedfinal_143_11_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

open Idealize.ShloMosaic

namespace Cert.Pre_finite_inputs.Decode

open Cert.Pre_finite_inputs

instance : Subsingleton S_.Idx := ⟨fun a b => funext fun d => d.elim0⟩

/-- An extended real whose absolute value compares below +∞ is a real. -/
theorem real_of_abs_lt (x : EReal)
    (h : FloatOps.cmpf (F := Ideal) (φ := .f32) .olt (FloatOps.hostAbsf x) (FloatOps.ofBits .f32 0x7F800000#32) = 1#1) :
    ∃ r : ℝ, x = (r : EReal) := by
  have htop : Ideal.ofBits .f32 0x7F800000#32 = ⊤ := by simp [Ideal.ofBits, Ideal.ieee]
  rw [Ideal.cmpf_def, Ideal.hostAbsf_def, Ideal.absf_def, Ideal.ofBits_def, htop] at h
  induction x using EReal.rec with
  | bot => simp [Ideal.cmp] at h
  | coe r => exact ⟨r, rfl⟩
  | top => simp [Ideal.cmp] at h

/-- Under the precondition every entry of the second argument (the scores) is a real. -/
theorem scores_real [Facts] (a0 : FVec Ideal S8x512x128x128 .f32) (a1 : FVec Ideal S8x19x128x128 .f32)
    (h : fn (F := Ideal) a0 a1 = fun _ => 1#1) (i : S8x19x128x128.Idx) : ∃ r : ℝ, a1 i = (r : EReal) := by
  have h0 := congrFun h ValueIdx.ix0
  dsimp only [fn] at h0
  have h1 := (IntOp.andi_eq_one.mp h0).2
  have h2 := Host.reduce_andi_all _ _ _ _ _ h1 i
  exact real_of_abs_lt _ h2

end Cert.Pre_finite_inputs.Decode

end
-- ==== Proof.lean ====
/- Softmax-weighted spatial pooling, the kernel against its jnp reference, on the extended reals.

   For features F (8 batches, 512 channels, 16384 positions) and scores P (8 batches, 19 classes, 16384 positions) both
   programs return, at (b, ch, k), the channel's features pooled under the softmax of the class's scores over the
   positions: Σₙ F[b,ch,n] · w[b,k,n] with w[b,k,n] = e[b,k,n] / z[b,k], e = exp (P − max P) along the row, z = Σ e.

   The kernel visits a grid of 8 batches by 4 blocks of 128 channels. At a batch's first block it computes the batch's
   weights as e · (1 / z), transposed, into a scratch it keeps for the batch's other three blocks; at every block it
   multiplies the block's features with the scratch and writes the 128 rows of the result back (Proof/Pieces, Payload,
   Blocks, Carried, Final). The reference divides e by z, contracts once over the positions and transposes
   (Proof/RefPool). The two agree where z is not zero, which is where the precondition — every input finite — is used:
   real scores give a row maximum below +∞, so every term of z is positive (Proof/Spec, Proof/Finite). Sums over the
   positions are the same finite sums on both sides, and products commute.

   The three frames are the generated ones (the reference's: its generated run with the result dropped); the
   idealization rewrote nothing, so `preserves` is trivial. -/
import proofs.«101488_g94489280978_feedfinal_143_11_alg».proof.Defs
import proofs.«101488_g94489280978_feedfinal_143_11_alg».proof.Proof.Gen.Kernel
import proofs.«101488_g94489280978_feedfinal_143_11_alg».proof.Proof.Gen.Kernel.Skeleton
import proofs.«101488_g94489280978_feedfinal_143_11_alg».proof.Proof.Gen.Kernel.Launch
import proofs.«101488_g94489280978_feedfinal_143_11_alg».proof.Proof.Gen.Kernel.Points
import proofs.«101488_g94489280978_feedfinal_143_11_alg».proof.Proof.Gen.Kernel.Frame
import proofs.«101488_g94489280978_feedfinal_143_11_alg».proof.Proof.Gen.KernelIdeal
import proofs.«101488_g94489280978_feedfinal_143_11_alg».proof.Proof.Gen.KernelIdeal.Skeleton
import proofs.«101488_g94489280978_feedfinal_143_11_alg».proof.Proof.Gen.KernelIdeal.Launch
import proofs.«101488_g94489280978_feedfinal_143_11_alg».proof.Proof.Gen.KernelIdeal.Points
import proofs.«101488_g94489280978_feedfinal_143_11_alg».proof.Proof.Gen.KernelIdeal.Frame
import proofs.«101488_g94489280978_feedfinal_143_11_alg».proof.Proof.Gen.ReferenceIdeal
import proofs.«101488_g94489280978_feedfinal_143_11_alg».proof.Proof.Gen.ReferenceIdeal.Run
import proofs.«101488_g94489280978_feedfinal_143_11_alg».proof.Proof.Gen.ReferenceIdeal.Read
import proofs.«101488_g94489280978_feedfinal_143_11_alg».proof.Proof.Gen.Pre_finite_inputs
import proofs.«101488_g94489280978_feedfinal_143_11_alg».proof.Proof.Spec
import proofs.«101488_g94489280978_feedfinal_143_11_alg».proof.Proof.Final
import proofs.«101488_g94489280978_feedfinal_143_11_alg».proof.Proof.RefPool
import proofs.«101488_g94489280978_feedfinal_143_11_alg».proof.Proof.Finite
import Idealize.ShloMosaic.Adequacy
import Idealize.ShloMosaic.Init

noncomputable section

namespace Cert.Proof

open Idealize.ShloMosaic Idealize.SL.Sem

/-- Both runs end at the pooled array of the flattened arguments with a trailing unit axis: the kernel's by its run
    read block by block, the reference's by its generated run read stage by stage, for scores the precondition makes
    real. -/
theorem algebraic : Cert.algebraic_KernelIdeal_ReferenceIdeal := by
  intro m ρ m' ρ' hpre hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v17_eq _ _).trans ?_
  have hreal := fun i => Cert.Pre_finite_inputs.Decode.scores_real _ _ (hpre c) i
  unfold Cert.ReferenceIdeal.Read.val_main_v17
  rw [Cert.ReferenceIdeal.RefPool.ref_is_pool _ _ hreal]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
